-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S5000x128 : Shape := ⟨2, ![5000, 128]⟩
abbrev S1x128 : Shape := ⟨2, ![1, 128]⟩

abbrev nBuf : Space → Nat
  | .hbm => 32
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x128, .f32⟩
  | .hbm, ⟨15, _⟩ => ⟨S_, .f32⟩
  | .hbm, ⟨16, _⟩ => ⟨S100000x128, .f32⟩
  | .hbm, ⟨17, _⟩ => ⟨S1600000x1, .i32⟩
  | .hbm, ⟨18, _⟩ => ⟨S100000x128, .f32⟩
  | .hbm, ⟨19, _⟩ => ⟨S_, .f32⟩
  | .hbm, ⟨20, _⟩ => ⟨S1600000, .f32⟩
  | .hbm, ⟨21, _⟩ => ⟨S_, .f32⟩
  | .hbm, ⟨22, _⟩ => ⟨S100000, .f32⟩
  | .hbm, ⟨23, _⟩ => ⟨S1600000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x128, .f32⟩
  | .hbm, ⟨30, _⟩ => ⟨S100000x128, .f32⟩
  | .hbm, ⟨31, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v18) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 40
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x128, .f32⟩
  | .hbm, ⟨15, _⟩ => ⟨S_, .f32⟩
  | .hbm, ⟨16, _⟩ => ⟨S100000x128, .f32⟩
  | .hbm, ⟨17, _⟩ => ⟨S1600000x1, .i32⟩
  | .hbm, ⟨18, _⟩ => ⟨S100000x128, .f32⟩
  | .hbm, ⟨19, _⟩ => ⟨S_, .f32⟩
  | .hbm, ⟨20, _⟩ => ⟨S1600000, .f32⟩
  | .hbm, ⟨21, _⟩ => ⟨S_, .f32⟩
  | .hbm, ⟨22, _⟩ => ⟨S100000, .f32⟩
  | .hbm, ⟨23, _⟩ => ⟨S1600000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x128, .f32⟩
  | .hbm, ⟨30, _⟩ => ⟨S100000x128, .f32⟩
  | .hbm, ⟨31, _⟩ => ⟨S100000x128, .f32⟩
  | .hbm, ⟨32, _⟩ => ⟨S1x128, .f32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S_, .f32⟩
  | .hbm, ⟨38, _⟩ => ⟨S100000x128, .f32⟩
  | .hbm, ⟨39, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_call0_cst : Ref sig .tc := ⟨.hbm, 37, rfl⟩
abbrev main_call0_v0 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.BlockRows.lean ====
/-
  Which rows of the arrays each grid point works on.

  The grid has 20 points.  At point t the two row-blocked operands (the averaged features and the features) and the
  result are at block row t, so entry (p, k) of such a block is entry (5000·t + p, k) of its array; the two weight
  matrices and the bias have a single block, the whole array, at every point.  Each statement is about reading a block
  out of ANY array of the window's type, and is then used for the array the region finds.
-/
import proofs.«173805_j3195455668883_1_alg».proof.Proof.Gen.KernelIdeal.Value
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.SageKernel

open Cert.KernelIdeal Cert.KernelIdeal.Gen

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a <;> rfl

/-- Where each window's block sits at point t (decided over the 20 points): the two row blocks and the result's block
    at block row t, the weights and the bias at their only block. -/
theorem block_at : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Block t of the averaged features' window, read out of an array, is rows 5000·t … 5000·t + 4999 of that array. -/
theorem aggRows_read (c : Dev nD) (t : Fin cfg0.N) (A : Buf (Elt Ideal) ((c : Thread nD τ).loc (Pipeline.arrRef spec0 0)))
    (y : S5000x128.Idx) (i : S100000x128.Idx)
    (h0 : (i 0).val = t.val * 5000 + (y 0).val) (h1 : (i 1).val = (y 1).val) :
    (((cfg0.win 0).blk t).view.read (Elt Ideal) A : Vec Ideal S5000x128 .f32) y = (A : S100000x128.Idx → Elt Ideal .f32) i := by
  obtain ⟨e0, e1, -⟩ := block_at t
  rw [View.read_apply]
  show A _ = A _
  refine congrArg A (funext fun a => Fin.ext ?_)
  match a with
  | ⟨0, _⟩ => show win0_0.index t 0 * 5000 + 1 * (y 0).val = (i 0).val; rw [e0, h0]; omega
  | ⟨1, _⟩ => show win0_0.index t 1 * 128 + 1 * (y 1).val = (i 1).val; rw [e1, h1]; omega

/-- The same for the block the region finds at point t. -/
theorem aggBlock_apply (c : Dev nD) (t : Fin cfg0.N) (y : S5000x128.Idx) (i : S100000x128.Idx)
    (h0 : (i 0).val = t.val * 5000 + (y 0).val) (h1 : (i 1).val = (y 1).val) :
    (iblk m c 0 t : Vec Ideal S5000x128 .f32) y = (V m c (Pipeline.arrRef spec0 0) : S100000x128.Idx → Elt Ideal .f32) i := by
  unfold iblk
  exact aggRows_read c t (V m c (Pipeline.arrRef spec0 0)) y i h0 h1

/-- Block t of the features' window, read out of an array, is rows 5000·t … 5000·t + 4999 of that array. -/
theorem xRows_read (c : Dev nD) (t : Fin cfg0.N) (A : Buf (Elt Ideal) ((c : Thread nD τ).loc (Pipeline.arrRef spec0 1)))
    (y : S5000x128.Idx) (i : S100000x128.Idx)
    (h0 : (i 0).val = t.val * 5000 + (y 0).val) (h1 : (i 1).val = (y 1).val) :
    (((cfg0.win 1).blk t).view.read (Elt Ideal) A : Vec Ideal S5000x128 .f32) y = (A : S100000x128.Idx → Elt Ideal .f32) i := by
  obtain ⟨-, -, e0, e1, -⟩ := block_at t
  rw [View.read_apply]
  show A _ = A _
  refine congrArg A (funext fun a => Fin.ext ?_)
  match a with
  | ⟨0, _⟩ => show win0_1.index t 0 * 5000 + 1 * (y 0).val = (i 0).val; rw [e0, h0]; omega
  | ⟨1, _⟩ => show win0_1.index t 1 * 128 + 1 * (y 1).val = (i 1).val; rw [e1, h1]; omega

/-- The same for the block the region finds at point t. -/
theorem xBlock_apply (c : Dev nD) (t : Fin cfg0.N) (y : S5000x128.Idx) (i : S100000x128.Idx)
    (h0 : (i 0).val = t.val * 5000 + (y 0).val) (h1 : (i 1).val = (y 1).val) :
    (iblk m c 1 t : Vec Ideal S5000x128 .f32) y = (V m c (Pipeline.arrRef spec0 1) : S100000x128.Idx → Elt Ideal .f32) i := by
  unfold iblk
  exact xRows_read c t (V m c (Pipeline.arrRef spec0 1)) y i h0 h1

/-- The left weights' block at every point is the whole matrix. -/
theorem wl_read (c : Dev nD) (t : Fin cfg0.N) (A : Buf (Elt Ideal) ((c : Thread nD τ).loc (Pipeline.arrRef spec0 2)))
    (y : S128x128.Idx) :
    (((cfg0.win 2).blk t).view.read (Elt Ideal) A : Vec Ideal S128x128 .f32) y = (A : S128x128.Idx → Elt Ideal .f32) y := by
  obtain ⟨-, -, -, -, e0, e1, -⟩ := block_at t
  rw [View.read_apply]
  show A _ = A _
  refine congrArg A (funext fun a => Fin.ext ?_)
  match a with
  | ⟨0, _⟩ => show win0_2.index t 0 * 128 + 1 * (y 0).val = (y 0).val; rw [e0]; omega
  | ⟨1, _⟩ => show win0_2.index t 1 * 128 + 1 * (y 1).val = (y 1).val; rw [e1]; omega

/-- The same for the block the region finds at point t. -/
theorem wlBlock_apply (c : Dev nD) (t : Fin cfg0.N) (y : S128x128.Idx) :
    (iblk m c 2 t : Vec Ideal S128x128 .f32) y = (V m c (Pipeline.arrRef spec0 2) : S128x128.Idx → Elt Ideal .f32) y := by
  unfold iblk
  exact wl_read c t (V m c (Pipeline.arrRef spec0 2)) y

/-- The bias's block at every point is the whole vector. -/
theorem b_read (c : Dev nD) (t : Fin cfg0.N) (A : Buf (Elt Ideal) ((c : Thread nD τ).loc (Pipeline.arrRef spec0 3)))
    (y : S128.Idx) :
    (((cfg0.win 3).blk t).view.read (Elt Ideal) A : Vec Ideal S128 .f32) y = (A : S128.Idx → Elt Ideal .f32) y := by
  obtain ⟨-, -, -, -, -, -, e0, -⟩ := block_at t
  rw [View.read_apply]
  show A _ = A _
  refine congrArg A (funext fun a => Fin.ext ?_)
  match a with
  | ⟨0, _⟩ => show win0_3.index t 0 * 128 + 1 * (y 0).val = (y 0).val; rw [e0]; omega

/-- The same for the block the region finds at point t. -/
theorem bBlock_apply (c : Dev nD) (t : Fin cfg0.N) (y : S128.Idx) :
    (iblk m c 3 t : Vec Ideal S128 .f32) y = (V m c (Pipeline.arrRef spec0 3) : S128.Idx → Elt Ideal .f32) y := by
  unfold iblk
  exact b_read c t (V m c (Pipeline.arrRef spec0 3)) y

/-- The right weights' block at every point is the whole matrix. -/
theorem wr_read (c : Dev nD) (t : Fin cfg0.N) (A : Buf (Elt Ideal) ((c : Thread nD τ).loc (Pipeline.arrRef spec0 4)))
    (y : S128x128.Idx) :
    (((cfg0.win 4).blk t).view.read (Elt Ideal) A : Vec Ideal S128x128 .f32) y = (A : S128x128.Idx → Elt Ideal .f32) y := by
  obtain ⟨-, -, -, -, -, -, -, e0, e1, -⟩ := block_at t
  rw [View.read_apply]
  show A _ = A _
  refine congrArg A (funext fun a => Fin.ext ?_)
  match a with
  | ⟨0, _⟩ => show win0_4.index t 0 * 128 + 1 * (y 0).val = (y 0).val; rw [e0]; omega
  | ⟨1, _⟩ => show win0_4.index t 1 * 128 + 1 * (y 1).val = (y 1).val; rw [e1]; omega

/-- The same for the block the region finds at point t. -/
theorem wrBlock_apply (c : Dev nD) (t : Fin cfg0.N) (y : S128x128.Idx) :
    (iblk m c 4 t : Vec Ideal S128x128 .f32) y = (V m c (Pipeline.arrRef spec0 4) : S128x128.Idx → Elt Ideal .f32) y := by
  unfold iblk
  exact wr_read c t (V m c (Pipeline.arrRef spec0 4)) y

/-- What a point writes back, against any array R of the result's type: if every entry j of a payload is R at the
    array index that entry sits at in block t, the payload written back is block t of R. -/
theorem writeBack_eq (c : Dev nD) (t : Fin cfg0.N) (R : Buf (Elt Ideal) ((c : Thread nD τ).loc (Pipeline.arrRef spec0 5)))
    (pay : Vec Ideal S5000x128 .f32)
    (h : ∀ (j : S5000x128.Idx) (i : S100000x128.Idx), (i 0).val = t.val * 5000 + (j 0).val → (i 1).val = (j 1).val →
      pay j = (R : S100000x128.Idx → Elt Ideal .f32) i) :
    (cfg0.win 5).cut (grid0.coords t) pay = ((cfg0.win 5).blk t).view.read (Elt Ideal) R := by
  obtain ⟨-, -, -, -, -, -, -, -, -, e0, e1⟩ := block_at t
  funext j
  rw [View.read_apply]
  show pay j = R (((cfg0.win 5).blk t).view.emb j)
  refine h j _ ?_ ?_
  · show win0_5.index t 0 * 5000 + 1 * (j 0).val = t.val * 5000 + (j 0).val
    rw [e0]; omega
  · show win0_5.index t 1 * 128 + 1 * (j 1).val = (j 1).val
    rw [e1]; omega

end Cert.SageKernel

end
-- ==== Proof.LibLayout.lean ====
/-
  Layout operations of small rank read at an index written by coordinates, and a row sum.

  A column vector `[a, 1]` made from a vector `[a]`, a column broadcast along the rows of a matrix `[a, b]`, and the
  sum of a matrix's rows by a reduction over its second axis: each read at `ix1` / `ix2` coordinates.
-/
import Idealize.ShloMosaic.Lib.Pipeline.Value
import Idealize.ShloMosaic.Lib.ValueIdx
import Idealize.ShloMosaic.Lib.ValueLayout
import Idealize.ShloMosaic.PureOps.Ideal.Laws

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the second axis of a matrix of extended reals, read at row `n`: the row's sum. -/
theorem multiReduction_add_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral FTy.f32 hφ)
    (n : Fin a) :
    multiReduction .add [1] ⟨1, ![a]⟩ src acc h hφ hacc (ix1 n) = ∑ k : Fin b, src (ix2 n k) := by
  refine (Ideal.multiReduction_add_single src acc h hφ hacc (ix1 n)).trans ?_
  refine Finset.sum_congr rfl fun k _ => ?_
  exact congrArg src (funext fun ax => Fin.ext (by match ax with | ⟨0, _⟩ => rfl | ⟨1, _⟩ => rfl))

/-- The maximum over the second axis of a matrix of extended reals, read at row `n`: the fold of `max` over the row
    from the accumulator's value. -/
theorem multiReduction_max_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.maximumf.neutral FTy.f32 hφ)
    (n : Fin a) :
    multiReduction .maximumf [1] ⟨1, ![a]⟩ src acc h hφ hacc (ix1 n)
      = (Finset.univ : Finset (Fin b)).fold max (Ideal.ofBits .f32 acc) (fun k => src (ix2 n k)) := by
  refine (Ideal.multiReduction_maximumf_single src acc h hφ hacc (ix1 n)).trans ?_
  refine congrArg (Finset.fold max (Ideal.ofBits .f32 acc) · Finset.univ) (funext fun k => ?_)
  exact congrArg src (funext fun ax => Fin.ext (by match ax with | ⟨0, _⟩ => rfl | ⟨1, _⟩ => rfl))

/-- The row sum and the row maximum with the accumulator's word and its proof spelt as a printed body spells them (the
    zero word; the `-∞` word), so that they rewrite a printed reduction where it stands. -/
theorem sum_rows_apply {a b : ℕ} (src : FVec Ideal ⟨2, ![a, b]⟩ .f32)
    (h : (⟨2, ![a, b]⟩ : Shape).Reduces [1] ⟨1, ![a]⟩) (hφ : FKind.Formats FTy.f32)
    (hacc : (0x00000000#32 : BitVec 32) = 0x00000000#32) (n : Fin a) :
    multiReduction .add [1] ⟨1, ![a]⟩ src 0x00000000#32 h hφ hacc (ix1 n) = ∑ k : Fin b, src (ix2 n k) :=
  multiReduction_add_rows src 0x00000000#32 h hφ hacc n

theorem max_rows_apply {a b : ℕ} (src : FVec Ideal ⟨2, ![a, b]⟩ .f32)
    (h : (⟨2, ![a, b]⟩ : Shape).Reduces [1] ⟨1, ![a]⟩) (hφ : FKind.Formats FTy.f32)
    (hacc : (0xFF800000#32 : BitVec 32) = 0xFF800000#32) (n : Fin a) :
    multiReduction .maximumf [1] ⟨1, ![a]⟩ src 0xFF800000#32 h hφ hacc (ix1 n)
      = (Finset.univ : Finset (Fin b)).fold max (Ideal.ofBits .f32 0xFF800000#32) (fun k => src (ix2 n k)) :=
  multiReduction_max_rows src 0xFF800000#32 h hφ hacc n

/-- A vector `[b]` laid as one row and repeated down the rows of `[a, b]` reads, at `(p, c)`, the vector at `c`
    (a bias added to every row). -/
theorem rowBias_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A matrix product of rows with rows (`A · Bᵀ`: the second axis of each operand contracted) into a zero accumulator,
    on the extended reals: entry `(p, q)` is the sum over `k` of `A[p, k] · B[q, k]`.  The record's own facts (one
    contracted axis of extent `K`; the free axes' coordinates) are hypotheses, closed at a literal record by
    `rfl` and by unfolding the index functions. -/
theorem matmul_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ k : Fin K, lhs (ix2 p k) * rhs (ix2 q k) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- A matrix product of rows with columns (`A · B`: the left operand's second axis against the right operand's first)
    into a zero accumulator, on the extended reals: entry `(p, q)` is the sum over `k` of `A[p, k] · B[k, q]`. -/
theorem matmul_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

/-- A vector cut from `o` reads, at `j`, the source at `o + j`. -/
theorem slice1_eq {n0 m : Nat} (o : Nat) (X : (⟨1, ![n0]⟩ : Shape).Idx → α)
    (h : (⟨1, ![n0]⟩ : Shape).Slices ![o] ⟨1, ![m]⟩) (j : Fin m) :
    extractStridedSlice ⟨1, ![m]⟩ ![o] X h (ix1 j)
      = X (ix1 ⟨o + j.val, Nat.lt_of_lt_of_le (Nat.add_lt_add_left j.isLt o) (h.2 0)⟩) :=
  extractStridedSlice_apply _ _ _ _ _ (fun ax => by
    match ax with
    | ⟨0, _⟩ => rfl)

/-- A column `[a, 1]` read back as the vector `[a]`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A sum over 512 terms is the sum of its eight runs of 64. -/
theorem sum_512_eq_8x64 {M : Type*} [AddCommMonoid M] (f : Fin 512 → M) :
    ∑ r : Fin 512, f r = ∑ c : Fin 8, ∑ j : Fin 64, f ⟨64 * c.val + j.val, by omega⟩ := by
  have e := Equiv.sum_comp (finProdFinEquiv (m := 8) (n := 64)) (fun r : Fin (8 * 64) => f r)
  rw [show (∑ r : Fin 512, f r) = ∑ r : Fin (8 * 64), f r from rfl, ← e, Fintype.sum_prod_type]
  refine Finset.sum_congr rfl fun c _ => Finset.sum_congr rfl fun j _ => congrArg f (Fin.ext ?_)
  show j.val + 64 * c.val = 64 * c.val + j.val
  omega

/-- The same sum as an accumulation from zero of the eight runs, in order. -/
theorem sum_512_chunks {M : Type*} [AddCommMonoid M] (f : Fin 512 → M) :
    ∑ r : Fin 512, f r =
      0 + (∑ j : Fin 64, f ⟨0 + j.val, by omega⟩) + (∑ j : Fin 64, f ⟨64 + j.val, by omega⟩)
        + (∑ j : Fin 64, f ⟨128 + j.val, by omega⟩) + (∑ j : Fin 64, f ⟨192 + j.val, by omega⟩)
        + (∑ j : Fin 64, f ⟨256 + j.val, by omega⟩) + (∑ j : Fin 64, f ⟨320 + j.val, by omega⟩)
        + (∑ j : Fin 64, f ⟨384 + j.val, by omega⟩) + (∑ j : Fin 64, f ⟨448 + j.val, by omega⟩) := by
  rw [sum_512_eq_8x64, Fin.sum_univ_eight, zero_add]
  rfl

end Cert.LibLayout
-- ==== Proof.LibHostDot.lean ====
/-
  The host's matrix products read entry by entry on the extended reals: rows against rows (A · Bᵀ) and rows against
  columns (A · B), each entry the sum over the contracted index of the operands' products.
-/
import Idealize.ShloMosaic.Lib.Pipeline.Value
import Idealize.ShloMosaic.Lib.ValueIdx
import Idealize.ShloMosaic.PureOps.Ideal.Laws

namespace Cert.LibHostDot

open Idealize.ShloMosaic Idealize.ShloMosaic.ValueIdx

/-- The host's product of rows with rows: entry `(p, q)` is the sum over `k` of `A[p, k] · B[q, k]`. The record's facts
    (one contracted axis of extent `K`; the free axes' coordinates) are hypotheses, closed at a literal record by `rfl`
    and by unfolding the index functions. -/
theorem dotGeneral_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    Host.dotGeneral d prec lhs rhs (ix2 p q) = ∑ k : Fin K, lhs (ix2 p k) * rhs (ix2 q k) := by
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- The host's product of rows with columns: entry `(p, q)` is the sum over `k` of `A[p, k] · B[k, q]`. -/
theorem dotGeneral_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    Host.dotGeneral d prec lhs rhs (ix2 p q) = ∑ k : Fin K, lhs (ix2 p k) * rhs (ix2 k q) := by
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

end Cert.LibHostDot
-- ==== Proof.LibMatRows.lean ====
/-
  A matrix product computed one block of rows at a time is the whole product.

  Let X be an M × K matrix, W a K × N matrix, and let x0 be m consecutive rows of X (row p of x0 is row P of X).  The
  product of x0 with W accumulated into the zero matrix has, at (p, q), the sum over k of x0[p, k] · W[k, q]; the host's
  whole product X · W has, at (P, q), the sum over k of X[P, k] · W[k, q].  The two sums have equal terms, so a grid of
  row blocks that tiles X writes exactly the whole product.  On the extended reals nothing else is involved: no
  rounding, no order of summation.  All extents are variables; the records' own facts are hypotheses.
-/
import Idealize.ShloMosaic.Lib.Pipeline.Value
import Idealize.ShloMosaic.Lib.ValueIdx
import Idealize.ShloMosaic.PureOps.Ideal.Laws
import proofs.«173805_j3195455668883_1_alg».proof.Proof.LibLayout
import proofs.«173805_j3195455668883_1_alg».proof.Proof.LibHostDot

noncomputable section

namespace Cert.LibMatRows

open Idealize.ShloMosaic Idealize.ShloMosaic.ValueIdx

/-- Entry (p, q) of a block's product into zero is entry (P, q) of the whole host product, when row p of the block is
    row P of the whole left operand and the right operands agree on column q. -/
theorem block_entry {M m K N : ℕ} {φ₁ φ₂ : FTy}
    (dB : DotDims ⟨2, ![m, K]⟩ ⟨2, ![K, N]⟩ ⟨2, ![m, N]⟩) (dW : DotDims ⟨2, ![M, K]⟩ ⟨2, ![K, N]⟩ ⟨2, ![M, N]⟩)
    (hrB : dB.contr.rank = 1) (hsB : dB.contr.size ⟨0, by omega⟩ = K)
    (hlcB : dB.lhsContracting = [1]) (hrcB : dB.rhsContracting = [0])
    (hl0B : ∀ j k, (dB.lhsIdx j k 0).val = (j 0).val) (hr1B : ∀ j k, (dB.rhsIdx j k 1).val = (j 1).val)
    (hrW : dW.contr.rank = 1) (hsW : dW.contr.size ⟨0, by omega⟩ = K)
    (hlcW : dW.lhsContracting = [1]) (hrcW : dW.rhsContracting = [0])
    (hl0W : ∀ j k, (dW.lhsIdx j k 0).val = (j 0).val) (hr1W : ∀ j k, (dW.rhsIdx j k 1).val = (j 1).val)
    (X : FVec Ideal ⟨2, ![M, K]⟩ .f32) (W : FVec Ideal ⟨2, ![K, N]⟩ .f32)
    (x0 : FVec Ideal ⟨2, ![m, K]⟩ φ₁) (w0 : FVec Ideal ⟨2, ![K, N]⟩ φ₂)
    (p : Fin m) (q : Fin N) (P : Fin M)
    (hx : ∀ k : Fin K, x0 (ix2 p k) = X (ix2 P k)) (hw : ∀ k : Fin K, w0 (ix2 k q) = W (ix2 k q)) :
    matmul dB none x0 w0 (constant ⟨2, ![m, N]⟩ .f32 0x00000000#32) (ix2 p q)
      = Host.dotGeneral dW none X W (ix2 P q) := by
  rw [Cert.LibLayout.matmul_rows_cols_apply dB hrB hsB hlcB hrcB hl0B hr1B,
    Cert.LibHostDot.dotGeneral_rows_cols_apply dW hrW hsW hlcW hrcW hl0W hr1W]
  refine Finset.sum_congr rfl fun k _ => ?_
  rw [hx k, hw k]

end Cert.LibMatRows

end
-- ==== Proof.LibCombine.lean ====
/-
  Sums of per-relation contributions and bias rows, rectified: the vector unit's spelling against the host's.

  A bias row r (a 1 × n matrix) broadcast down the rows of a matrix has r[0, q] at entry (p, q), whether it is spelt as a
  trailing-axes broadcast of a block or as a broadcast along named axes of the whole matrix.  The kernel adds three
  contributions and three bias rows from left to right, (((((x0 + y0) + x1) + y1) + x2) + y2); the host adds each
  contribution to its own bias first and then adds the three, ((x0 + y0) + (x1 + y1)) + (x2 + y2).  Addition on the
  extended reals is associative (and commutative), with no finiteness needed, so the two agree entry by entry; the
  maximum against zero is then taken of equal numbers.  A vector reshaped to one row is the same row as the vector given
  a leading unit axis.  All extents are variables.
-/
import Idealize.ShloMosaic.PureOps.Ideal.Laws
import Idealize.ShloMosaic.Lib.ValueIdx
import Idealize.ShloMosaic.Lib.Pipeline.Value

noncomputable section

namespace Cert.LibCombine

open Idealize.ShloMosaic Idealize.ShloMosaic.ValueIdx

/-- A coordinate below an extent is itself, or zero when the extent is one. -/
theorem val_eq_ite {n : Nat} (a : Fin n) : a.val = if n = 1 then 0 else a.val := by
  split
  · have := a.isLt; omega
  · rfl

/-- A row (1 × n) cast to its own shape and broadcast down a rows reads, at (p, q), the row at q. -/
theorem blockRow_apply {α : Type} {a n : Nat} (r : (⟨2, ![1, n]⟩ : Shape).Idx → α)
    (h1 : (⟨2, ![1, n]⟩ : Shape).ShapeCasts ⟨2, ![1, n]⟩) (h2 : (⟨2, ![1, n]⟩ : Shape).Broadcasts ⟨2, ![a, n]⟩)
    (p : Fin a) (q : Fin n) :
    broadcastTo ⟨2, ![a, n]⟩ (shapeCast ⟨2, ![1, n]⟩ r h1) h2 (ix2 p q) = r (ix2 0 q) := by
  rw [shapeCast_self]
  exact broadcastTo_apply _ h2 (ix2 p q) (ix2 0 q) (fun c => by
    match c with
    | ⟨0, _⟩ => show (0 : Nat) = if (1 : Nat) = 1 then 0 else _; rw [if_pos rfl]
    | ⟨1, _⟩ => exact val_eq_ite (n := n) q)

/-- A row (1 × n) broadcast along both axes down A rows reads, at (P, q), the row at q. -/
theorem wholeRow_apply {α : Type} {A n : Nat} (r : (⟨2, ![1, n]⟩ : Shape).Idx → α)
    (h4 : (⟨2, ![1, n]⟩ : Shape).BroadcastsInDim ⟨2, ![A, n]⟩ (![0, 1] : Fin 2 → Fin 2)) (P : Fin A) (q : Fin n) :
    broadcastInDim ⟨2, ![A, n]⟩ ![0, 1] h4 r (ix2 P q) = r (ix2 0 q) :=
  broadcastInDim_apply _ h4 _ (ix2 P q) (ix2 0 q) (fun c => by
    match c with
    | ⟨0, _⟩ => show (0 : Nat) = if (1 : Nat) = 1 then 0 else _; rw [if_pos rfl]
    | ⟨1, _⟩ => exact val_eq_ite (n := n) q)

/-- A vector of length n reshaped to one row is the vector given a leading unit axis. -/
theorem reshapeRow_eq {α : Type} {n : Nat} (b : (⟨1, ![n]⟩ : Shape).Idx → α)
    (h0 : (⟨1, ![n]⟩ : Shape).ShapeCasts ⟨2, ![1, n]⟩)
    (h3 : (⟨1, ![n]⟩ : Shape).BroadcastsInDim ⟨2, ![1, n]⟩ (![1] : Fin 1 → Fin 2)) :
    shapeCast ⟨2, ![1, n]⟩ b h0 = broadcastInDim ⟨2, ![1, n]⟩ ![1] h3 b := by
  funext i
  obtain ⟨z, q, rfl⟩ : ∃ (z : Fin 1) (q : Fin n), i = ix2 z q := ⟨i 0, i 1, eq_ix2 i⟩
  rw [broadcastInDim_apply _ h3 b (ix2 z q) (ix1 q) (fun c => by
    match c with
    | ⟨0, _⟩ => exact val_eq_ite (n := n) q)]
  refine shapeCast_apply b h0 (ix2 z q) (ix1 q) ?_
  rw [Shape.rowMajor_val_one, Shape.rowMajor_val_two]
  have hz : z.val = 0 := by have := z.isLt; omega
  show q.val = z.val * n + q.val
  rw [hz]; omega

/-- THREE CONTRIBUTIONS WITH THEIR BIAS ROWS, RECTIFIED, at one entry: the kernel's left-to-right sum over a block is the
    host's grouped sum over the whole matrix, when the block's entry (p, q) is the whole's entry (P, q) and the block's bias
    rows are the whole bias rows at column q. -/
theorem combine3_entry {a A n : Nat} (a0 a1 a2 : FVec Ideal ⟨2, ![a, n]⟩ .f32) (r0 r1 r2 : FVec Ideal ⟨2, ![1, n]⟩ .f32)
    (A0 A1 A2 : FVec Ideal ⟨2, ![A, n]⟩ .f32) (R0 R1 R2 : FVec Ideal ⟨2, ![1, n]⟩ .f32)
    (h1 : (⟨2, ![1, n]⟩ : Shape).ShapeCasts ⟨2, ![1, n]⟩) (h2 : (⟨2, ![1, n]⟩ : Shape).Broadcasts ⟨2, ![a, n]⟩)
    (h4 : (⟨2, ![1, n]⟩ : Shape).BroadcastsInDim ⟨2, ![A, n]⟩ (![0, 1] : Fin 2 → Fin 2))
    (h5 : (⟨0, ![]⟩ : Shape).BroadcastsInDim ⟨2, ![A, n]⟩ (![] : Fin 0 → Fin 2))
    (p : Fin a) (q : Fin n) (P : Fin A)
    (e0 : a0 (ix2 p q) = A0 (ix2 P q)) (e1 : a1 (ix2 p q) = A1 (ix2 P q)) (e2 : a2 (ix2 p q) = A2 (ix2 P q))
    (f0 : r0 (ix2 0 q) = R0 (ix2 0 q)) (f1 : r1 (ix2 0 q) = R1 (ix2 0 q)) (f2 : r2 (ix2 0 q) = R2 (ix2 0 q)) :
    maximumf (addf (addf (addf (addf (addf a0
        (broadcastTo ⟨2, ![a, n]⟩ (shapeCast ⟨2, ![1, n]⟩ r0 h1) h2)) a1)
        (broadcastTo ⟨2, ![a, n]⟩ (shapeCast ⟨2, ![1, n]⟩ r1 h1) h2)) a2)
        (broadcastTo ⟨2, ![a, n]⟩ (shapeCast ⟨2, ![1, n]⟩ r2 h1) h2))
        (broadcast ⟨2, ![a, n]⟩ (Scalar.ofBits (F := Ideal) .f32 0x00000000#32)) (ix2 p q)
      = maximumf (addf (addf (addf A0 (broadcastInDim ⟨2, ![A, n]⟩ ![0, 1] h4 R0))
          (addf A1 (broadcastInDim ⟨2, ![A, n]⟩ ![0, 1] h4 R1)))
          (addf A2 (broadcastInDim ⟨2, ![A, n]⟩ ![0, 1] h4 R2)))
          (broadcastInDim ⟨2, ![A, n]⟩ ![] h5 (constant (F := Ideal) ⟨0, ![]⟩ .f32 0x00000000#32)) (ix2 P q) := by
  simp only [maximumf, addf]
  refine congrArg₂ FloatOps.maximumf ?_ rfl
  rw [blockRow_apply r0 h1 h2 p q, blockRow_apply r1 h1 h2 p q, blockRow_apply r2 h1 h2 p q,
    wholeRow_apply R0 h4 P q, wholeRow_apply R1 h4 P q, wholeRow_apply R2 h4 P q, e0, e1, e2, f0, f1, f2]
  simp only [Ideal.addf_def, add_assoc]

/-- ONE CONTRIBUTION WITH ITS BIAS ROW, RECTIFIED, at one entry. -/
theorem combine1_entry {a A n : Nat} (a0 : FVec Ideal ⟨2, ![a, n]⟩ .f32) (r0 : FVec Ideal ⟨2, ![1, n]⟩ .f32)
    (A0 : FVec Ideal ⟨2, ![A, n]⟩ .f32) (R0 : FVec Ideal ⟨2, ![1, n]⟩ .f32)
    (h1 : (⟨2, ![1, n]⟩ : Shape).ShapeCasts ⟨2, ![1, n]⟩) (h2 : (⟨2, ![1, n]⟩ : Shape).Broadcasts ⟨2, ![a, n]⟩)
    (h4 : (⟨2, ![1, n]⟩ : Shape).BroadcastsInDim ⟨2, ![A, n]⟩ (![0, 1] : Fin 2 → Fin 2))
    (h5 : (⟨0, ![]⟩ : Shape).BroadcastsInDim ⟨2, ![A, n]⟩ (![] : Fin 0 → Fin 2))
    (p : Fin a) (q : Fin n) (P : Fin A) (e0 : a0 (ix2 p q) = A0 (ix2 P q)) (f0 : r0 (ix2 0 q) = R0 (ix2 0 q)) :
    maximumf (addf a0 (broadcastTo ⟨2, ![a, n]⟩ (shapeCast ⟨2, ![1, n]⟩ r0 h1) h2))
        (broadcast ⟨2, ![a, n]⟩ (Scalar.ofBits (F := Ideal) .f32 0x00000000#32)) (ix2 p q)
      = maximumf (addf A0 (broadcastInDim ⟨2, ![A, n]⟩ ![0, 1] h4 R0))
          (broadcastInDim ⟨2, ![A, n]⟩ ![] h5 (constant (F := Ideal) ⟨0, ![]⟩ .f32 0x00000000#32)) (ix2 P q) := by
  simp only [maximumf, addf]
  refine congrArg₂ FloatOps.maximumf ?_ rfl
  rw [blockRow_apply r0 h1 h2 p q, wholeRow_apply R0 h4 P q, e0, f0]

end Cert.LibCombine

end
-- ==== Proof.LayerEntry.lean ====
/-
  One layer of neighbourhood averaging followed by two linear maps, read one entry at a time.

  The layer's result at row P and column q is
      max( (Σₖ agg[P, k] · Wl[k, q]  +  b[q])  +  Σₖ x[P, k] · Wr[k, q] ,  0 ),
  where agg is the matrix of averaged neighbour features.  The vector unit computes it for a block of consecutive rows:
  with a0 and x0 the block's rows of agg and of x, it forms the two products into zero accumulators, adds the bias row
  repeated down the block to the first, adds the second, and takes the maximum with zero.  The host forms the two whole
  products, adds the bias row repeated down the whole matrix, and takes the maximum with zero — in the same grouping.
  Entry (p, q) of the block's result is entry (P, q) of the host's when row p of each block is row P of the whole
  matrix: the products agree term by term, the bias is b[q] on both sides, and nothing else is involved.  No law of
  arithmetic is used, so the statement holds on all extended reals.
-/
import proofs.«173805_j3195455668883_1_alg».proof.Proof.Gen.KernelIdeal.Skeleton
import proofs.«173805_j3195455668883_1_alg».proof.Proof.Gen.ReferenceIdeal
import proofs.«173805_j3195455668883_1_alg».proof.Proof.LibMatRows
import proofs.«173805_j3195455668883_1_alg».proof.Proof.LibLayout
import proofs.«173805_j3195455668883_1_alg».proof.Proof.LibCombine

noncomputable section

namespace Cert.SageLayer

open Idealize.ShloMosaic Idealize.ShloMosaic.ValueIdx

/-- The host's layer as one function of the averaged features, the features, the two weight matrices and the bias. -/
def hostLayer (agg x : FVec Ideal Cert.ReferenceIdeal.S100000x128 .f32) (wl : FVec Ideal Cert.ReferenceIdeal.S128x128 .f32)
    (b : FVec Ideal Cert.ReferenceIdeal.S128 .f32) (wr : FVec Ideal Cert.ReferenceIdeal.S128x128 .f32) :
    FVec Ideal Cert.ReferenceIdeal.S100000x128 .f32 :=
  open Cert.ReferenceIdeal Cert.ReferenceIdeal.Facts₀ in
  maximumf (addf (addf (Host.dotGeneral dot_S100000x128_S128x128_S100000x128_1_0_0_1_n_n none agg wl)
      (broadcastInDim S100000x128 ![0, 1] bcast_S1x128_S100000x128_0_1 (broadcastInDim S1x128 ![1] bcast_S128_S1x128_1 b)))
      (Host.dotGeneral dot_S100000x128_S128x128_S100000x128_1_0_0_1_n_n none x wr))
    (broadcastInDim S100000x128 ![] bcast_S_S100000x128 (constant (F := Ideal) S_ .f32 0x00000000#32))

/-- The free coordinates of the block product's record. -/
theorem blockDot_lhs0 (j : Cert.KernelIdeal.S5000x128.Idx) (k : Cert.KernelIdeal.dot_S5000x128_S128x128_S5000x128_1_0_0_1_n_n.contr.Idx) :
    (Cert.KernelIdeal.dot_S5000x128_S128x128_S5000x128_1_0_0_1_n_n.lhsIdx j k 0).val = (j 0).val := by
  unfold DotDims.lhsIdx
  rw [dif_neg (show ¬(0 : Fin Cert.KernelIdeal.S5000x128.rank) ∈ Cert.KernelIdeal.dot_S5000x128_S128x128_S5000x128_1_0_0_1_n_n.lhsBatch by decide),
    dif_pos (show (0 : Fin Cert.KernelIdeal.S5000x128.rank) ∈ Cert.KernelIdeal.dot_S5000x128_S128x128_S5000x128_1_0_0_1_n_n.lhsNonContracting by decide)]
  rfl

theorem blockDot_rhs1 (j : Cert.KernelIdeal.S5000x128.Idx) (k : Cert.KernelIdeal.dot_S5000x128_S128x128_S5000x128_1_0_0_1_n_n.contr.Idx) :
    (Cert.KernelIdeal.dot_S5000x128_S128x128_S5000x128_1_0_0_1_n_n.rhsIdx j k 1).val = (j 1).val := by
  unfold DotDims.rhsIdx
  rw [dif_neg (show ¬(1 : Fin Cert.KernelIdeal.S128x128.rank) ∈ Cert.KernelIdeal.dot_S5000x128_S128x128_S5000x128_1_0_0_1_n_n.rhsBatch by decide),
    dif_pos (show (1 : Fin Cert.KernelIdeal.S128x128.rank) ∈ Cert.KernelIdeal.dot_S5000x128_S128x128_S5000x128_1_0_0_1_n_n.rhsNonContracting by decide)]
  rfl

/-- The free coordinates of the whole product's record. -/
theorem wholeDot_lhs0 (j : Cert.ReferenceIdeal.S100000x128.Idx) (k : Cert.ReferenceIdeal.dot_S100000x128_S128x128_S100000x128_1_0_0_1_n_n.contr.Idx) :
    (Cert.ReferenceIdeal.dot_S100000x128_S128x128_S100000x128_1_0_0_1_n_n.lhsIdx j k 0).val = (j 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide),
    dif_pos (show (0 : Fin Cert.ReferenceIdeal.S100000x128.rank) ∈ Cert.ReferenceIdeal.dot_S100000x128_S128x128_S100000x128_1_0_0_1_n_n.lhsNonContracting by decide)]
  rfl

theorem wholeDot_rhs1 (j : Cert.ReferenceIdeal.S100000x128.Idx) (k : Cert.ReferenceIdeal.dot_S100000x128_S128x128_S100000x128_1_0_0_1_n_n.contr.Idx) :
    (Cert.ReferenceIdeal.dot_S100000x128_S128x128_S100000x128_1_0_0_1_n_n.rhsIdx j k 1).val = (j 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide),
    dif_pos (show (1 : Fin Cert.ReferenceIdeal.S128x128.rank) ∈ Cert.ReferenceIdeal.dot_S100000x128_S128x128_S100000x128_1_0_0_1_n_n.rhsNonContracting by decide)]
  rfl

/-- A block's product into zero at (p, q) is the whole product at (P, q), when row p of the block is row P of the whole
    left operand and the right operands agree down column q. -/
theorem product_entry (L : FVec Ideal Cert.ReferenceIdeal.S100000x128 .f32) (W : FVec Ideal Cert.ReferenceIdeal.S128x128 .f32)
    (l0 : FVec Ideal Cert.KernelIdeal.S5000x128 .bf16) (w0 : FVec Ideal Cert.KernelIdeal.S128x128 .bf16)
    (p : Fin 5000) (q : Fin 128) (P : Fin 100000)
    (hl : ∀ k : Fin 128, l0 (ix2 p k) = L (ix2 P k)) (hw : ∀ k : Fin 128, w0 (ix2 k q) = W (ix2 k q)) :
    matmul Cert.KernelIdeal.dot_S5000x128_S128x128_S5000x128_1_0_0_1_n_n none l0 w0
        (constant Cert.KernelIdeal.S5000x128 .f32 0x00000000#32) (ix2 p q)
      = Host.dotGeneral Cert.ReferenceIdeal.dot_S100000x128_S128x128_S100000x128_1_0_0_1_n_n none L W (ix2 P q) :=
  Cert.LibMatRows.block_entry (M := 100000) (m := 5000) (K := 128) (N := 128)
    Cert.KernelIdeal.dot_S5000x128_S128x128_S5000x128_1_0_0_1_n_n Cert.ReferenceIdeal.dot_S100000x128_S128x128_S100000x128_1_0_0_1_n_n
    rfl rfl rfl rfl blockDot_lhs0 blockDot_rhs1 rfl rfl rfl rfl wholeDot_lhs0 wholeDot_rhs1 L W l0 w0 p q P hl hw

/-- THE LAYER AT ONE ENTRY: what the vector unit stores at (p, q) of a block is the host's layer at (P, q), when row p of
    the block's two left operands is row P of the whole ones and the weights and the bias are the whole ones at column q. -/
theorem entry (AGG X : FVec Ideal Cert.ReferenceIdeal.S100000x128 .f32) (WL WR : FVec Ideal Cert.ReferenceIdeal.S128x128 .f32)
    (B : FVec Ideal Cert.ReferenceIdeal.S128 .f32)
    (v0 v3 : Vec Ideal Cert.KernelIdeal.S5000x128 .f32) (v5 v7 : Vec Ideal Cert.KernelIdeal.S128x128 .f32)
    (v11 : Vec Ideal Cert.KernelIdeal.S128 .f32) (p : Fin 5000) (q : Fin 128) (P : Fin 100000)
    (h0 : ∀ k : Fin 128, v0 (ix2 p k) = AGG (ix2 P k)) (h3 : ∀ k : Fin 128, v3 (ix2 p k) = X (ix2 P k))
    (h5 : ∀ k : Fin 128, v5 (ix2 k q) = WL (ix2 k q)) (h7 : ∀ k : Fin 128, v7 (ix2 k q) = WR (ix2 k q))
    (h11 : v11 (ix1 q) = B (ix1 q)) :
    Cert.KernelIdeal.Gen.k0_pay1 (F := Ideal) v0 v3 v5 v7 v11 (ix2 p q) = hostLayer AGG X WL B WR (ix2 P q) := by
  unfold Cert.KernelIdeal.Gen.k0_pay1 hostLayer
  simp only [maximumf, addf]
  refine congrArg₂ FloatOps.maximumf (congrArg₂ FloatOps.addf (congrArg₂ FloatOps.addf ?_ ?_) ?_) rfl
  · exact product_entry AGG WL _ _ p q P (fun k => by rw [shapeCast_self]; exact h0 k) h5
  · rw [Cert.LibLayout.rowBias_apply, Cert.LibCombine.wholeRow_apply, h11]
    exact (broadcastInDim_apply _ _ B (ix2 0 q) (ix1 q) (fun c => by
      match c with
      | ⟨0, _⟩ => exact Cert.LibCombine.val_eq_ite (n := 128) q)).symm
  · exact product_entry X WR _ _ p q P h3 h7

end Cert.SageLayer

end
-- ==== Proof.LayerBlocks.lean ====
/-
  The result array after the run: the layer of the arrays the region finds.

  Point t of the grid writes rows 5000·t … 5000·t + 4999 of the result.  Entry (p, q) of what it writes is the layer at row
  5000·t + p and column q, because row p of each of its two row blocks is row 5000·t + p of the whole operand and the
  weights and the bias are whole at every point.  Every row r of the result lies in the block of point r / 5000, so after
  the last point the result array is the layer, entry by entry.
-/
import proofs.«173805_j3195455668883_1_alg».proof.Proof.BlockRows
import proofs.«173805_j3195455668883_1_alg».proof.Proof.LayerEntry

noncomputable section

open Idealize.ShloMosaic Idealize.ShloMosaic.TcCoe Idealize.SL.Sem Idealize.ShloMosaic.ValueIdx
open Idealize.ShloMosaic.Pipeline (Dat)

namespace Cert.SageKernel

open Cert.KernelIdeal Cert.KernelIdeal.Gen

variable (m : (ℓ : Loc nD τ sig) → Buf (Elt Ideal) ℓ) (ρ : Dev nD → PrngReg)

/-- The layer of the arrays as the region finds them (each named by the window that stages it): what the result array
    ends holding. -/
abbrev result (c : Dev nD) : S100000x128.Idx → Elt Ideal .f32 :=
  Cert.SageLayer.hostLayer (V m c (Pipeline.arrRef spec0 0)) (V m c (Pipeline.arrRef spec0 1)) (V m c (Pipeline.arrRef spec0 2))
    (V m c (Pipeline.arrRef spec0 3)) (V m c (Pipeline.arrRef spec0 4))

/-- What the vector unit stores for a block whose rows are rows 5000·T … of the whole operands, at entry j, is the
    layer at the array index i that the block's entry j sits at. -/
theorem stored_entry (AGG X : FVec Ideal Cert.ReferenceIdeal.S100000x128 .f32) (WL WR : FVec Ideal Cert.ReferenceIdeal.S128x128 .f32)
    (B : FVec Ideal Cert.ReferenceIdeal.S128 .f32)
    (v0 v3 : Vec Ideal S5000x128 .f32) (v5 v7 : Vec Ideal S128x128 .f32) (v11 : Vec Ideal S128 .f32) (T : Nat)
    (h0 : ∀ (y : S5000x128.Idx) (i : S100000x128.Idx), (i 0).val = T * 5000 + (y 0).val → (i 1).val = (y 1).val → v0 y = AGG i)
    (h3 : ∀ (y : S5000x128.Idx) (i : S100000x128.Idx), (i 0).val = T * 5000 + (y 0).val → (i 1).val = (y 1).val → v3 y = X i)
    (h5 : ∀ y : S128x128.Idx, v5 y = WL y) (h7 : ∀ y : S128x128.Idx, v7 y = WR y) (h11 : ∀ y : S128.Idx, v11 y = B y)
    (j : S5000x128.Idx) (i : S100000x128.Idx) (hi0 : (i 0).val = T * 5000 + (j 0).val) (hi1 : (i 1).val = (j 1).val) :
    k0_pay1 (F := Ideal) v0 v3 v5 v7 v11 j = Cert.SageLayer.hostLayer AGG X WL B WR i := by
  obtain ⟨p, q, rfl⟩ : ∃ (p : Fin 5000) (q : Fin 128), j = ix2 p q := ⟨j 0, j 1, eq_ix2 j⟩
  obtain ⟨P, q', rfl⟩ : ∃ (P : Fin 100000) (q' : Fin 128), i = ix2 P q' := ⟨i 0, i 1, eq_ix2 i⟩
  obtain rfl : q' = q := Fin.ext hi1
  exact Cert.SageLayer.entry AGG X WL WR B v0 v3 v5 v7 v11 p q' P
    (fun k => h0 (ix2 p k) (ix2 P k) hi0 rfl) (fun k => h3 (ix2 p k) (ix2 P k) hi0 rfl)
    (fun k => h5 _) (fun k => h7 _) (h11 _)

/-- WHAT POINT t WRITES BACK is block t of the layer. -/
theorem flushed_eq (c : Dev nD) (t : Fin cfg0.N) :
    (dats m 0 c).flushed 5 t = ((cfg0.win 5).blk t).view.read (Elt Ideal) (result m c) := by
  rw [Cert.KernelIdeal.Value.flushed5]
  unfold out0_5
  rw [View.canon_unit_zero zero2]
  simp only [View.ld_unit_zero (S := S5000x128) zero2, View.ld_unit_zero (S := S128x128) zero2, View.ld_unit_zero (S := S128) zero1]
  refine writeBack_eq c t _ _ fun j i hi0 hi1 => ?_
  exact stored_entry (V m c (Pipeline.arrRef spec0 0)) (V m c (Pipeline.arrRef spec0 1)) (V m c (Pipeline.arrRef spec0 2))
    (V m c (Pipeline.arrRef spec0 4)) (V m c (Pipeline.arrRef spec0 3))
    (iblk m c 0 t) (iblk m c 1 t) (iblk m c 2 t) (iblk m c 4 t) (iblk m c 3 t) t.val
    (aggBlock_apply m c t) (xBlock_apply m c t) (wlBlock_apply m c t)
    (wrBlock_apply m c t) (bBlock_apply m c t) j i hi0 hi1

/-- An index of the result array is in point t's block iff each coordinate is in the block's range on its axis. -/
theorem mem_block (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v19).slice (win0_5.rect t)).set ↔ _
  rw [View.set_slice_whole, Rect.mem_set_unit]
  exact Iff.rfl

/-- Every index of the result array is in the block of the point its row falls to. -/
theorem covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  have ht : (i 0).val / 5000 < cfg0.N := by rw [hN]; omega
  obtain ⟨-, -, -, -, -, -, -, -, -, e0, e1⟩ := block_at ⟨(i 0).val / 5000, ht⟩
  refine ⟨⟨(i 0).val / 5000, ht⟩, flush0_5 _, ?_⟩
  rw [mem_block]
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win0_5.index ⟨(i 0).val / 5000, ht⟩ (1 : Fin 2) * 128 ≤ (i 1).val ∧ (i 1).val < win0_5.index ⟨(i 0).val / 5000, ht⟩ (1 : Fin 2) * 128 + 128
    rw [e1]; omega

/-- THE RESULT ARRAY after the run is the layer of the arrays the region finds. -/
theorem final (c : Dev nD) : (dats m 0 c).arrAt 5 cfg0.N = result m c :=
  (dats m 0 c).arrAt_eq_of_cover 5 (result m c) (fun t _ => flushed_eq m c t) covered

end Cert.SageKernel

end
-- ==== Proof.Neighbours.lean ====
/-
  The averaged neighbour features.

  Every edge e carries the feature row of its source node, x[col[e]] (a negative source index counted from the end), to
  its destination node row[e]; the rows arriving at a node are added, and the sum is divided by the number of edges
  arriving there, or by one if there are none.  Both programs compute this matrix with the same host operations in the
  same order before anything else, so it is named here once, as a function of the features and of the two index vectors.
-/
import proofs.«173805_j3195455668883_1_alg».proof.Proof.Gen.ReferenceIdeal
import Idealize.ShloMosaic.PureOps.Ideal

noncomputable section

namespace Cert.SageLayer

open Idealize.ShloMosaic

/-- The matrix of averaged neighbour features: for each node the sum of its incoming edges' source rows over
    max(number of incoming edges, 1). -/
def neighbourMean (x : FVec Ideal Cert.ReferenceIdeal.S100000x128 .f32)
    (row col : (⟨Cert.ReferenceIdeal.S1600000, .i32⟩ : BufTy).Contents (Elt Ideal)) :
    FVec Ideal Cert.ReferenceIdeal.S100000x128 .f32 :=
  open Cert.ReferenceIdeal Cert.ReferenceIdeal.Facts₀ in
  Host.divf
    (Host.scatterAdd scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 row)
      (Host.gather gather_S100000x128_S1600000x1_S1600000x128_1_0_n_n_0_1_1128 x
        (broadcastInDim S1600000x1 ![0] bcast_S1600000_S1600000x1_0
          (select (cmpi .slt col (broadcastInDim S1600000 ![] bcast_S_S1600000 (constantI S_ 32 0#32)))
            (addi col (broadcastInDim S1600000 ![] bcast_S_S1600000 (constantI S_ 32 100000#32))) col))))
    (broadcastInDim S100000x128 ![0, 1] bcast_S100000x1_S100000x128_0_1
      (broadcastInDim S100000x1 ![0] bcast_S100000_S100000x1_0
        (maximumf
          (Host.scatterAdd scatter_S100000_S1600000x1_S1600000_n_0_0_1
            (broadcastInDim S100000 ![] bcast_S_S100000 (constant (F := Ideal) S_ .f32 0x00000000#32))
            (broadcastInDim S1600000x1 ![0] bcast_S1600000_S1600000x1_0 row)
            (broadcastInDim S1600000 ![] bcast_S_S1600000 (constant (F := Ideal) S_ .f32 0x3F800000#32)))
          (broadcastInDim S100000 ![] bcast_S_S100000 (constant (F := Ideal) S_ .f32 0x3F800000#32)))))

end Cert.SageLayer

end
-- ==== Proof.KernelRun.lean ====
/-
  The kernel's run, read: the result array as one function of the arguments.

  Before the region the host operations compute the averaged neighbour features from the features and the two index
  vectors and leave the arguments as they were, so the arrays the region finds are the averaged features and the
  arguments themselves.  With the result array's contents after the last grid point (the layer of the arrays the
  region finds) this gives the run's result as the layer of the averaged features and the arguments.
-/
import proofs.«173805_j3195455668883_1_alg».proof.Proof.LayerBlocks
import proofs.«173805_j3195455668883_1_alg».proof.Proof.Neighbours
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.SageKernel

open Cert.KernelIdeal Cert.KernelIdeal.Gen

variable (m : (ℓ : Loc nD τ sig) → Buf (Elt Ideal) ℓ) (ρ : Dev nD → PrngReg)

set_option maxHeartbeats 2000000 in
open Idealize.ShloMosaic.StableHlo in
/-- The array the first window stages, as the region finds it, is the averaged neighbour features of the arguments:
    the host operations before the region, read back. -/
theorem agg_found (c : Dev nD) :
    (V m c main_v18 : S100000x128.Idx → Elt Ideal .f32)
      = Cert.SageLayer.neighbourMean (m ((c : Thread nD τ).loc main_arg0)) (m ((c : Thread nD τ).loc main_arg1))
          (m ((c : Thread nD τ).loc main_arg2)) := by
  dsimp only [V, hostOps0]
  after_results_simp
  rfl

/-- The layer of the arrays the region finds is the layer of the averaged neighbour features and the arguments. -/
theorem result_eq (c : Dev nD) :
    result m c = Cert.SageLayer.hostLayer
      (Cert.SageLayer.neighbourMean (m ((c : Thread nD τ).loc main_arg0)) (m ((c : Thread nD τ).loc main_arg1))
        (m ((c : Thread nD τ).loc main_arg2)))
      (m ((c : Thread nD τ).loc main_arg0)) (m ((c : Thread nD τ).loc main_arg3)) (m ((c : Thread nD τ).loc main_arg4))
      (m ((c : Thread nD τ).loc main_arg5)) :=
  congr (congr (congr (congr (congrArg Cert.SageLayer.hostLayer (agg_found m c)) (V_main_arg0 m c)) (V_main_arg3 m c))
    (V_main_arg4 m c)) (V_main_arg5 m c)

/-- THE RUN, READ: every weakly fair execution terminates with the result array at the layer of the averaged neighbour
    features and the arguments, and the arguments unchanged. -/
theorem run : θ_run defs (onTc (τ := τ) (main (F := Ideal))) ⟨m, fun _ => 0, ρ⟩ fun r => ∀ c : Dev nD,
      r.2.mem ((c : Thread nD τ).loc main_v19) = Cert.SageLayer.hostLayer
          (Cert.SageLayer.neighbourMean (m ((c : Thread nD τ).loc main_arg0)) (m ((c : Thread nD τ).loc main_arg1))
            (m ((c : Thread nD τ).loc main_arg2)))
          (m ((c : Thread nD τ).loc main_arg0)) (m ((c : Thread nD τ).loc main_arg3)) (m ((c : Thread nD τ).loc main_arg4))
          (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((final m c).trans (result_eq m c)), (h c).2⟩)
    (Cert.KernelIdeal.Value.run_blocks m ρ)

end Cert.SageKernel

end
-- ==== Proof.lean ====
/-
  A graph layer with mean aggregation, the kernel against its jnp reference on the extended reals.

  Both programs first compute, by the same host operations in the same order, the matrix agg of averaged neighbour
  features: for each node the sum of the feature rows x[col[e]] over the edges e arriving at it (row[e] = the node),
  divided by max(number of such edges, 1).  Then the result at row P and column q is
      max( (Σₖ agg[P, k] · Wl[k, q]  +  b[q])  +  Σₖ x[P, k] · Wr[k, q] ,  0 ).
  The reference computes the two whole matrix products, adds the bias row down the first, adds the second and takes the
  maximum with zero.  The kernel does the same for 20 blocks of 5000 consecutive rows, one grid point each, with the
  operands' formats changed on the way to the matrix unit (the identity on the extended reals), and writes each block of
  rows to its place.  Row p of block t is row 5000·t + p of the whole matrix, so the kernel's result array is the
  reference's, entry by entry: the products agree term by term and the sums are grouped alike, so no law of arithmetic
  and no finiteness is needed, and the precondition is not used.

  The three frames are the generated frame proofs of the two kernel programs and the generated run of the reference; the
  ideal pass rewrote nothing, so the idealization conjunct is trivial.
-/
import proofs.«173805_j3195455668883_1_alg».proof.Defs
import proofs.«173805_j3195455668883_1_alg».proof.Proof.Gen.Kernel
import proofs.«173805_j3195455668883_1_alg».proof.Proof.Gen.Kernel.Skeleton
import proofs.«173805_j3195455668883_1_alg».proof.Proof.Gen.Kernel.Launch
import proofs.«173805_j3195455668883_1_alg».proof.Proof.Gen.Kernel.Points
import proofs.«173805_j3195455668883_1_alg».proof.Proof.Gen.Kernel.Frame
import proofs.«173805_j3195455668883_1_alg».proof.Proof.Gen.KernelIdeal
import proofs.«173805_j3195455668883_1_alg».proof.Proof.Gen.KernelIdeal.Skeleton
import proofs.«173805_j3195455668883_1_alg».proof.Proof.Gen.KernelIdeal.Launch
import proofs.«173805_j3195455668883_1_alg».proof.Proof.Gen.KernelIdeal.Points
import proofs.«173805_j3195455668883_1_alg».proof.Proof.Gen.KernelIdeal.Frame
import proofs.«173805_j3195455668883_1_alg».proof.Proof.Gen.ReferenceIdeal
import proofs.«173805_j3195455668883_1_alg».proof.Proof.Gen.KernelIdeal.Value
import proofs.«173805_j3195455668883_1_alg».proof.Proof.Gen.ReferenceIdeal.Run
import proofs.«173805_j3195455668883_1_alg».proof.Proof.Gen.Pre_finite_inputs
import proofs.«173805_j3195455668883_1_alg».proof.Proof.KernelRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- On the extended reals both programs end with the layer of the averaged neighbour features and the arguments. -/
theorem algebraic : Cert.algebraic_KernelIdeal_ReferenceIdeal := by
  intro m ρ m' ρ' _ hagree
  refine ⟨fun c => Cert.SageLayer.hostLayer
      (Cert.SageLayer.neighbourMean (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
      (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.SageKernel.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [h0, h1, h2, h3, h4, h5]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
